-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S264x10000 : Shape := ⟨2, ![264, 10000]⟩
abbrev S264x128 : Shape := ⟨2, ![264, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S264x10000, .f32⟩
  | .local _ .vmem, ⟨1, _⟩ => ⟨S264x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S264x128, .f32⟩
  | .local _ .vmem, ⟨6, _⟩ => ⟨S264x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![38], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S264x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S264x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S264x10000_S264x10000_0_0 : ∀ a, (![0, 0] : Fin 2 → Nat) a + S264x10000.size a ≤ S264x10000.size a
  h_S264x10000 : 0 < S264x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S264x128 : S1x128.Broadcasts S264x128
  inb_S264x128_S264x128_0_0 : ∀ a, (![0, 0] : Fin 2 → Nat) a + S264x128.size a ≤ S264x128.size a
  h_S264x128 : 0 < S264x128.numel
  dot_S264x10000_S10000x128_S264x128_1_0_0_1_n_n_wf : DotDims.WF S264x10000 S10000x128 S264x128 [1] [0] [0] [1] [] []
  dot_S264x128_S128x128_S264x128_1_0_0_1_n_n_wf : DotDims.WF S264x128 S128x128 S264x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S264x10000.size a < S10000x10000.size a
  hwx0_0 : ∀ i : grid0.Coords, EltTy.bits .f32 = 32 ∨ (Rect.unit (s := S10000x10000) (fun a => cc0_transform_0 i a * S264x10000.size a) (fun a => (Pipeline.Clip.of (cc0_transform_0 i a) (S264x10000.size a) (S10000x10000.size a)).extent (S264x10000.size a)) fun a => Pipeline.Clip.inb (Pipeline.Clip.ok_of (hstart0_0 i a))).WholeWords (EltTy.packing .f32)
  hwxs0_0 : ∀ i : grid0.Coords, EltTy.bits .f32 = 32 ∨ (Rect.unit (s := S264x10000) (fun _ => 0) (fun a => (Pipeline.Clip.of (cc0_transform_0 i a) (S264x10000.size a) (S10000x10000.size a)).extent (S264x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S264x128.size a < S10000x128.size a
  hwx0_4 : ∀ i : grid0.Coords, EltTy.bits .f32 = 32 ∨ (Rect.unit (s := S10000x128) (fun a => cc0_transform_4 i a * S264x128.size a) (fun a => (Pipeline.Clip.of (cc0_transform_4 i a) (S264x128.size a) (S10000x128.size a)).extent (S264x128.size a)) fun a => Pipeline.Clip.inb (Pipeline.Clip.ok_of (hstart0_4 i a))).WholeWords (EltTy.packing .f32)
  hwxs0_4 : ∀ i : grid0.Coords, EltTy.bits .f32 = 32 ∨ (Rect.unit (s := S264x128) (fun _ => 0) (fun a => (Pipeline.Clip.of (cc0_transform_4 i a) (S264x128.size a) (S10000x128.size a)).extent (S264x128.size a)) fun a => (Nat.zero_add _).trans_le (Pipeline.Clip.extent_le (Pipeline.Clip.ok_of (hstart0_4 i a)))).WholeWords (EltTy.packing .f32)

variable [Facts₀]

def dot_S264x10000_S10000x128_S264x128_1_0_0_1_n_n : DotDims S264x10000 S10000x128 S264x128 where
  lhsContracting := [1]
  rhsContracting := [0]
  lhsNonContracting := [0]
  rhsNonContracting := [1]
  lhsBatch := []
  rhsBatch := []
  wf := dot_S264x10000_S10000x128_S264x128_1_0_0_1_n_n_wf
def dot_S264x128_S128x128_S264x128_1_0_0_1_n_n : DotDims S264x128 S128x128 S264x128 where
  lhsContracting := [1]
  rhsContracting := [0]
  lhsNonContracting := [0]
  rhsNonContracting := [1]
  lhsBatch := []
  rhsBatch := []
  wf := dot_S264x128_S128x128_S264x128_1_0_0_1_n_n_wf

abbrev win0_0 : Pipeline.Window sig grid0 :=
  Pipeline.Window.ofSpecClip (Memref.whole main_arg1) S264x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S264x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelStep.lean ====
/-
  One grid step of the graph-convolution kernel, as a triple. The step reads four whole staging buffers — a
  264-row slab of the adjacency matrix, the node features, the weight matrix, the bias row — and overwrites a
  fifth, whole, with  max((slab · features) · weights, 0) + bias  (the skeleton's one payload). Every access is
  the whole buffer at offset zero, so a load returns the buffer's contents and the store leaves the payload
  itself: what the output buffer holds afterwards is that payload of what the four input buffers held.
-/
import proofs.«140104_g70205535420829_cont_sun_m_196_14_alg».proof.Proof.Gen.Kernel.Frame
import proofs.«140104_g70205535420829_cont_sun_m_196_14_alg».proof.Proof.Gen.Kernel.Skeleton
import proofs.«140104_g70205535420829_cont_sun_m_196_14_alg».proof.Proof.Gen.Kernel.Points
import Idealize.ShloMosaic.Lib.Pipeline.Frame
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The five whole-buffer rectangles -/

abbrev rectAdj : Rect S264x10000 := Rect.unit (s := S264x10000) ![0, 0] S264x10000.size inb_S264x10000_S264x10000_0_0
abbrev rectNode : Rect S10000x128 := Rect.unit (s := S10000x128) ![0, 0] S10000x128.size inb_S10000x128_S10000x128_0_0
abbrev rectW : Rect S128x128 := Rect.unit (s := S128x128) ![0, 0] S128x128.size inb_S128x128_S128x128_0_0
abbrev rectBias : Rect S1x128 := Rect.unit (s := S1x128) ![0, 0] S1x128.size inb_S1x128_S1x128_0_0
abbrev rectOut : Rect S264x128 := Rect.unit (s := S264x128) ![0, 0] S264x128.size inb_S264x128_S264x128_0_0

theorem zeroOff : (![0, 0] : Fin 2 → Nat) = fun _ => 0 := funext fun a => by
  match a with
  | ⟨0, _⟩ => rfl
  | ⟨1, _⟩ => rfl

/-- The output buffer after the step's one store, as the store's piece over the loaded inputs. -/
def stored (x0 : Vec F S264x10000 .f32) (x1 : Vec F S10000x128 .f32) (x2 : Vec F S128x128 .f32) (x3 : Vec F S1x128 .f32) :
    Vec F S264x128 .f32 :=
  View.canon [⟨rectOut, k0_pay1 (View.ld x0 rectAdj) (View.ld x1 rectNode) (View.ld x2 rectW) (View.ld x3 rectBias)⟩]

/-- The one store covers the buffer. -/
theorem cover_out (p0 : Vec F S264x128 .f32) (y : S264x128.Idx) :
    ∃ pc ∈ ([⟨rectOut, p0⟩] : List (View.Piece (Elt F) S264x128 .f32)), y ∈ pc.1.set :=
  View.cover_of_tiled [⟨rectOut, p0⟩] S264x128.size (by rfl) y

/-- Whole-buffer loads and a whole-buffer store: the stored contents are the payload of the buffers' contents. -/
theorem stored_eq (x0 : Vec F S264x10000 .f32) (x1 : Vec F S10000x128 .f32) (x2 : Vec F S128x128 .f32) (x3 : Vec F S1x128 .f32) :
    stored x0 x1 x2 x3 = k0_pay1 x0 x1 x2 x3 := by
  unfold stored
  rw [View.canon_unit_zero zeroOff]
  simp only [View.ld_unit_zero (S := S264x10000) zeroOff, View.ld_unit_zero (S := S10000x128) zeroOff,
    View.ld_unit_zero (S := S128x128) zeroOff, View.ld_unit_zero (S := S1x128) zeroOff]

set_option maxHeartbeats 4000000 in
/-- The step on whole staging memrefs: the four inputs' at contents `x0 … x3`, the output's at anything, run to
    the continuation holding the inputs' as they were and the output's at the payload of them. -/
theorem sound_step (c : Dev nD) (E : Set ℕ) (i : grid0.Coords)
    (arg1 : Memref sig .tc .vmem S264x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S264x128 .f32) (harg5 : arg5.IsWhole)
    (x0 : Vec F S264x10000 .f32) (x1 : Vec F S10000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E
          (cc0__gcn_block_kernel i arg1 harg1 arg2 harg2 arg3 harg3 arg4 harg4 arg5 harg5) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out (F := F) _)

end Cert.Kernel.Gen

end
-- ==== Proof.KernelRun.lean ====
/-
  The frame of the kernel as printed (at machine words). The pipeline is the idealized kernel's: 38 steps, the
  last adjacency slab and the last result block overhanging their arrays by 32 rows. A frame says nothing of what
  the result array holds, so the proof data forget the result's staging buffer: the step is handed it at any
  contents and hands it back at any contents. Of the other four buffers the step only reads: each is handed back
  as it was found — the slab's as the fetch left it, its rows inside the matrix named and the rest not.
-/
import proofs.«140104_g70205535420829_cont_sun_m_196_14_alg».proof.Proof.KernelStep

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window whose staging contents the frame does not name: the result's. -/
def resultOnly : Fin cfg0.W → Bool := fun w => match w with
  | ⟨0, _⟩ => false
  | ⟨1, _⟩ => false
  | ⟨2, _⟩ => false
  | ⟨3, _⟩ => false
  | ⟨4, _⟩ => true

/-- Step t's slab of the adjacency matrix: its rows inside the matrix, zero words past its end. -/
def slab (c : Dev nD) (t : Fin cfg0.N) : S264x10000.Idx → Elt F .f32 :=
  win0_0.fill (grid0.coords t) (fun _ => Scalar.ofBits .f32 0#32) (iblk m c 0 t)

/-- After step t the four input buffers hold what they held; the result's buffer is not named. -/
def dats (_ : Fin 1) (c : Dev nD) : Dat τ (Elt F) Unit ℕ (UR sig nD τ) ℕ cfg0 c where
  A w := V m c (Pipeline.arrRef spec0 w)
  after w t := match w with
    | ⟨0, _⟩ => slab m c t
    | ⟨1, _⟩ => iblk m c 1 t
    | ⟨2, _⟩ => iblk m c 2 t
    | ⟨3, _⟩ => iblk m c 3 t
    | ⟨4, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after_adj (c : Dev nD) (t : Fin cfg0.N) : (dats m 0 c).after 0 t = slab m c t := by dsimp only [dats]
theorem after_node (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_bias (c : Dev nD) (t : Fin cfg0.N) : (dats m 0 c).after 3 t = iblk m c 3 t := by dsimp only [dats]

theorem before_adj (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
theorem before_node (c : Dev nD) (t : Fin cfg0.N) (d) : (dats m 0 c).before 1 t d = iblk m c 1 t :=
  before0_1_of m (dats m 0 c) (A_eq m c 1) (after_node m c) t d
theorem before_w (c : Dev nD) (t : Fin cfg0.N) (d) : (dats m 0 c).before 2 t d = iblk m c 2 t :=
  before0_2_of m (dats m 0 c) (A_eq m c 2) (after_w m c) t d
theorem before_bias (c : Dev nD) (t : Fin cfg0.N) (d) : (dats m 0 c).before 3 t d = iblk m c 3 t :=
  before0_3_of m (dats m 0 c) (A_eq m c 3) (after_bias m c) t d

/-! ## The step's obligation -/

def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

def stepPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem sound_body (c : Dev nD) (t : Fin cfg0.N) :
    stepPre m c t ⊢ wp frame (wpE (defs₀ (F := F)) Variants.none c none) Set.univ (bodyAt0 t) (fun _ => stepPost m c t) := by
  unfold stepPre stepPost bodyAt0
  simp only [before_adj, before_node, before_w, before_bias]
  rw [show (dats m 0 c).Φ t.succ = (dats m 0 c).Φ t.castSucc from rfl,
    show (dats m 0 c).owesAt () t.succ = (dats m 0 c).owesAt () t.castSucc from rfl,
    after_adj, after_node, after_w, after_bias]
  iintro ⟨HΦ, Ho, ⟨%d0, H0⟩, ⟨%d1, H1⟩, ⟨%d2, H2⟩, ⟨%d3, H3⟩, ⟨%d4, H4⟩⟩
  iapply (sound_step (F := F) c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [show win0_0.cut (grid0.coords t) (slab m c t) = iblk m c 0 t from win0_0.cut_fill _ _ _]
    iexact H0
  isplitl [H1]; · iexact H1
  isplitl [H2]; · iexact H2
  isplitl [H3]; · iexact H3
  iexists _; iexact H4

theorem body_obligation (c : Dev nD) :
    BodyObligationLoose (dats m 0 c) (defs₀ (F := F)) Variants.none () Set.univ resultOnly := fun t => by
  rw [bigSep_W0, bigSep_W0]
  exact sound_body m c t

/-! ## The run and the frame -/

set_option backward.isDefEq.respectTransparency.types false in
/-- Every weakly fair execution of the kernel terminates, nothing faulting, with every input array of the pipeline
    and every buffer outside it as the region found it. -/
theorem run_main : θ_run defs (onTc (τ := τ) (main (F := F))) (s₀ m ρ)
    (Pipeline.RDat.FramePost cfg0 (fun c => (dats m 0 c).toRForget resultOnly) (V m)) :=
  Pipeline.RDat.θ_run_frame cfgs (0 : Fin 1) launch0 defs₀ Variants.none (fun c => (dats m 0 c).toRForget resultOnly) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- The frame: the run read at the four argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((dats m 0 c).toRForget_arrAt_iff (fgt := resultOnly) (w := 1) rfl _ _).mp ((h c).1 1)).trans
        (((dats m 0 c).arrAt_in 1 rfl _).trans ((A_eq m c 1).trans (V_main_arg0 m c))),
      (((dats m 0 c).toRForget_arrAt_iff (fgt := resultOnly) (w := 0) rfl _ _).mp ((h c).1 0)).trans
        (((dats m 0 c).arrAt_in 0 rfl _).trans ((A_eq m c 0).trans (V_main_arg1 m c))),
      (((dats m 0 c).toRForget_arrAt_iff (fgt := resultOnly) (w := 2) rfl _ _).mp ((h c).1 2)).trans
        (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.Kernel.Gen

end
-- ==== Proof.KernelIdealStep.lean ====
/-
  One grid step of the graph-convolution kernel, as a triple. The step reads four whole staging buffers — a
  264-row slab of the adjacency matrix, the node features, the weight matrix, the bias row — and overwrites a
  fifth, whole, with  max((slab · features) · weights, 0) + bias  (the skeleton's one payload). Every access is
  the whole buffer at offset zero, so a load returns the buffer's contents and the store leaves the payload
  itself: what the output buffer holds afterwards is that payload of what the four input buffers held.
-/
import proofs.«140104_g70205535420829_cont_sun_m_196_14_alg».proof.Proof.Gen.KernelIdeal.Frame
import proofs.«140104_g70205535420829_cont_sun_m_196_14_alg».proof.Proof.Gen.KernelIdeal.Skeleton
import proofs.«140104_g70205535420829_cont_sun_m_196_14_alg».proof.Proof.Gen.KernelIdeal.Points
import Idealize.ShloMosaic.Lib.Pipeline.Frame
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The five whole-buffer rectangles -/

abbrev rectAdj : Rect S264x10000 := Rect.unit (s := S264x10000) ![0, 0] S264x10000.size inb_S264x10000_S264x10000_0_0
abbrev rectNode : Rect S10000x128 := Rect.unit (s := S10000x128) ![0, 0] S10000x128.size inb_S10000x128_S10000x128_0_0
abbrev rectW : Rect S128x128 := Rect.unit (s := S128x128) ![0, 0] S128x128.size inb_S128x128_S128x128_0_0
abbrev rectBias : Rect S1x128 := Rect.unit (s := S1x128) ![0, 0] S1x128.size inb_S1x128_S1x128_0_0
abbrev rectOut : Rect S264x128 := Rect.unit (s := S264x128) ![0, 0] S264x128.size inb_S264x128_S264x128_0_0

theorem zeroOff : (![0, 0] : Fin 2 → Nat) = fun _ => 0 := funext fun a => by
  match a with
  | ⟨0, _⟩ => rfl
  | ⟨1, _⟩ => rfl

/-- The output buffer after the step's one store, as the store's piece over the loaded inputs. -/
def stored (x0 : Vec F S264x10000 .f32) (x1 : Vec F S10000x128 .f32) (x2 : Vec F S128x128 .f32) (x3 : Vec F S1x128 .f32) :
    Vec F S264x128 .f32 :=
  View.canon [⟨rectOut, k0_pay1 (View.ld x0 rectAdj) (View.ld x1 rectNode) (View.ld x2 rectW) (View.ld x3 rectBias)⟩]

/-- The one store covers the buffer. -/
theorem cover_out (p0 : Vec F S264x128 .f32) (y : S264x128.Idx) :
    ∃ pc ∈ ([⟨rectOut, p0⟩] : List (View.Piece (Elt F) S264x128 .f32)), y ∈ pc.1.set :=
  View.cover_of_tiled [⟨rectOut, p0⟩] S264x128.size (by rfl) y

/-- Whole-buffer loads and a whole-buffer store: the stored contents are the payload of the buffers' contents. -/
theorem stored_eq (x0 : Vec F S264x10000 .f32) (x1 : Vec F S10000x128 .f32) (x2 : Vec F S128x128 .f32) (x3 : Vec F S1x128 .f32) :
    stored x0 x1 x2 x3 = k0_pay1 x0 x1 x2 x3 := by
  unfold stored
  rw [View.canon_unit_zero zeroOff]
  simp only [View.ld_unit_zero (S := S264x10000) zeroOff, View.ld_unit_zero (S := S10000x128) zeroOff,
    View.ld_unit_zero (S := S128x128) zeroOff, View.ld_unit_zero (S := S1x128) zeroOff]

set_option maxHeartbeats 4000000 in
/-- The step on whole staging memrefs: the four inputs' at contents `x0 … x3`, the output's at anything, run to
    the continuation holding the inputs' as they were and the output's at the payload of them. -/
theorem sound_step (c : Dev nD) (E : Set ℕ) (i : grid0.Coords)
    (arg1 : Memref sig .tc .vmem S264x10000 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S264x128 .f32) (harg5 : arg5.IsWhole)
    (x0 : Vec F S264x10000 .f32) (x1 : Vec F S10000x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (stored x0 x1 x2 x3)) -∗ K ⟨⟩))
      ⊢ wp frame (wpE (defs₀ (F := F)) Variants.none c none) E
          (cc0__gcn_block_kernel i arg1 harg1 arg2 harg2 arg3 harg3 arg4 harg4 arg5 harg5) K := by
  simp only [cc0__gcn_block_kernel_eq_skeleton]; unfold cc0__gcn_block_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out (F := F) _)

end Cert.KernelIdeal.Gen

end
-- ==== Proof.KernelIdealPayload.lean ====
/-
  The grid step's arithmetic at the extended reals, read one entry at a time. For a 264-row slab `a` of the
  adjacency matrix, the node features `x`, the weights `w` and the bias row `b`, entry (p, l) of what the step
  stores is

      max (∑ₖ (∑ⱼ a[p,j] · x[j,k]) · w[k,l], 0) + b[0,l] :

  each matrix-unit product into a zero accumulator is the plain sum over its one contracted axis, the
  comparison with the zero splat is `max · 0`, and the bias row is broadcast down the rows. In particular row p of
  the result reads the slab at row p only (`pay_rows`).
-/
import proofs.«140104_g70205535420829_cont_sun_m_196_14_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

theorem slabFeat_lhs_row (i : S264x128.Idx) (q : dot_S264x10000_S10000x128_S264x128_1_0_0_1_n_n.contr.Idx) : (dot_S264x10000_S10000x128_S264x128_1_0_0_1_n_n.lhsIdx i q 0).val = (i 0).val := by
  unfold DotDims.lhsIdx
  rw [dif_neg (show ¬(0 : Fin S264x10000.rank) ∈ dot_S264x10000_S10000x128_S264x128_1_0_0_1_n_n.lhsBatch by decide), dif_pos (show (0 : Fin S264x10000.rank) ∈ dot_S264x10000_S10000x128_S264x128_1_0_0_1_n_n.lhsNonContracting by decide)]
  rfl
theorem slabFeat_rhs_col (i : S264x128.Idx) (q : dot_S264x10000_S10000x128_S264x128_1_0_0_1_n_n.contr.Idx) : (dot_S264x10000_S10000x128_S264x128_1_0_0_1_n_n.rhsIdx i q 1).val = (i 1).val := by
  unfold DotDims.rhsIdx
  rw [dif_neg (show ¬(1 : Fin S10000x128.rank) ∈ dot_S264x10000_S10000x128_S264x128_1_0_0_1_n_n.rhsBatch by decide), dif_pos (show (1 : Fin S10000x128.rank) ∈ dot_S264x10000_S10000x128_S264x128_1_0_0_1_n_n.rhsNonContracting by decide)]
  rfl

theorem timesW_lhs_row (i : S264x128.Idx) (q : dot_S264x128_S128x128_S264x128_1_0_0_1_n_n.contr.Idx) : (dot_S264x128_S128x128_S264x128_1_0_0_1_n_n.lhsIdx i q 0).val = (i 0).val := by
  unfold DotDims.lhsIdx
  rw [dif_neg (show ¬(0 : Fin S264x128.rank) ∈ dot_S264x128_S128x128_S264x128_1_0_0_1_n_n.lhsBatch by decide), dif_pos (show (0 : Fin S264x128.rank) ∈ dot_S264x128_S128x128_S264x128_1_0_0_1_n_n.lhsNonContracting by decide)]
  rfl
theorem timesW_rhs_col (i : S264x128.Idx) (q : dot_S264x128_S128x128_S264x128_1_0_0_1_n_n.contr.Idx) : (dot_S264x128_S128x128_S264x128_1_0_0_1_n_n.rhsIdx i q 1).val = (i 1).val := by
  unfold DotDims.rhsIdx
  rw [dif_neg (show ¬(1 : Fin S128x128.rank) ∈ dot_S264x128_S128x128_S264x128_1_0_0_1_n_n.rhsBatch by decide), dif_pos (show (1 : Fin S128x128.rank) ∈ dot_S264x128_S128x128_S264x128_1_0_0_1_n_n.rhsNonContracting by decide)]
  rfl

/-- The slab-times-features product, entry (p, q): the sum over the 10000 columns of the slab's row p. -/
theorem slab_features_apply (a : FVec Ideal S264x10000 .f32) (x : FVec Ideal S10000x128 .f32) (p : Fin 264) (q : Fin 128) :
    FloatOps.matmul dot_S264x10000_S10000x128_S264x128_1_0_0_1_n_n none a x (constant S264x128 .f32 0x00000000#32) (ix2 p q)
      = ∑ j : Fin 10000, a (ix2 p j) * x (ix2 j q) := by
  rw [Ideal.matmul_constant_zero_apply, ← Equiv.sum_comp (contrEquiv1 dot_S264x10000_S10000x128_S264x128_1_0_0_1_n_n 10000 rfl rfl).symm]
  refine Finset.sum_congr rfl fun k _ => ?_
  have hk := contrEquiv1_symm_val dot_S264x10000_S10000x128_S264x128_1_0_0_1_n_n 10000 rfl rfl k
  have el : dot_S264x10000_S10000x128_S264x128_1_0_0_1_n_n.lhsIdx (ix2 p q) ((contrEquiv1 dot_S264x10000_S10000x128_S264x128_1_0_0_1_n_n 10000 rfl rfl).symm k) = ix2 p k :=
    funext fun ax => Fin.ext (by
      match ax with
      | ⟨0, _⟩ => exact slabFeat_lhs_row _ _
      | ⟨1, _⟩ => exact (dot_S264x10000_S10000x128_S264x128_1_0_0_1_n_n.lhsIdx_val_of_single rfl _ _).trans hk)
  have er : dot_S264x10000_S10000x128_S264x128_1_0_0_1_n_n.rhsIdx (ix2 p q) ((contrEquiv1 dot_S264x10000_S10000x128_S264x128_1_0_0_1_n_n 10000 rfl rfl).symm k) = ix2 k q :=
    funext fun ax => Fin.ext (by
      match ax with
      | ⟨0, _⟩ => exact (dot_S264x10000_S10000x128_S264x128_1_0_0_1_n_n.rhsIdx_val_of_single rfl _ _).trans hk
      | ⟨1, _⟩ => exact slabFeat_rhs_col _ _)
  rw [el, er]

/-- The product with the weights, entry (p, l): the sum over the 128 feature columns. -/
theorem times_weights_apply (y : FVec Ideal S264x128 .f32) (w : FVec Ideal S128x128 .f32) (p : Fin 264) (l : Fin 128) :
    FloatOps.matmul dot_S264x128_S128x128_S264x128_1_0_0_1_n_n none y w (constant S264x128 .f32 0x00000000#32) (ix2 p l)
      = ∑ k : Fin 128, y (ix2 p k) * w (ix2 k l) := by
  rw [Ideal.matmul_constant_zero_apply, ← Equiv.sum_comp (contrEquiv1 dot_S264x128_S128x128_S264x128_1_0_0_1_n_n 128 rfl rfl).symm]
  refine Finset.sum_congr rfl fun k _ => ?_
  have hk := contrEquiv1_symm_val dot_S264x128_S128x128_S264x128_1_0_0_1_n_n 128 rfl rfl k
  have el : dot_S264x128_S128x128_S264x128_1_0_0_1_n_n.lhsIdx (ix2 p l) ((contrEquiv1 dot_S264x128_S128x128_S264x128_1_0_0_1_n_n 128 rfl rfl).symm k) = ix2 p k :=
    funext fun ax => Fin.ext (by
      match ax with
      | ⟨0, _⟩ => exact timesW_lhs_row _ _
      | ⟨1, _⟩ => exact (dot_S264x128_S128x128_S264x128_1_0_0_1_n_n.lhsIdx_val_of_single rfl _ _).trans hk)
  have er : dot_S264x128_S128x128_S264x128_1_0_0_1_n_n.rhsIdx (ix2 p l) ((contrEquiv1 dot_S264x128_S128x128_S264x128_1_0_0_1_n_n 128 rfl rfl).symm k) = ix2 k l :=
    funext fun ax => Fin.ext (by
      match ax with
      | ⟨0, _⟩ => exact (dot_S264x128_S128x128_S264x128_1_0_0_1_n_n.rhsIdx_val_of_single rfl _ _).trans hk
      | ⟨1, _⟩ => exact timesW_rhs_col _ _)
  rw [el, er]

/-- THE STEP'S PAYLOAD AT AN ENTRY. -/
theorem pay_apply (a : Vec Ideal S264x10000 .f32) (x : Vec Ideal S10000x128 .f32) (w : Vec Ideal S128x128 .f32) (b : Vec Ideal S1x128 .f32)
    (p : Fin 264) (l : Fin 128) :
    k0_pay1 (F := Ideal) a x w b (ix2 p l)
      = max (∑ k : Fin 128, (∑ j : Fin 10000, a (ix2 p j) * x (ix2 j k)) * w (ix2 k l)) 0 + b (ix2 (0 : Fin 1) l) := by
  unfold k0_pay1
  show max (FloatOps.matmul dot_S264x128_S128x128_S264x128_1_0_0_1_n_n none
        (matmul dot_S264x10000_S10000x128_S264x128_1_0_0_1_n_n none a x (constant S264x128 .f32 0x00000000#32)) w
        (constant S264x128 .f32 0x00000000#32) (ix2 p l)) (Ideal.ofBits .f32 0x00000000#32)
      + broadcastTo S264x128 (shapeCast S1x128 b shapeCasts_S1x128_S1x128) broadcasts_S1x128_S264x128 (ix2 p l) = _
  rw [times_weights_apply, Ideal.ofBits_zero_f32, shapeCast_self, broadcastTo_1b_ab_apply]
  refine congrArg (fun s => max s 0 + b (ix2 (0 : Fin 1) l)) (Finset.sum_congr rfl fun k _ => ?_)
  exact congrArg (· * w (ix2 k l)) (slab_features_apply a x p k)

/-- ROW-LOCALITY: row p of the step's result reads the slab at row p only. -/
theorem pay_rows (a a' : Vec Ideal S264x10000 .f32) (x : Vec Ideal S10000x128 .f32) (w : Vec Ideal S128x128 .f32) (b : Vec Ideal S1x128 .f32)
    (p : Fin 264) (l : Fin 128) (h : ∀ j : Fin 10000, a (ix2 p j) = a' (ix2 p j)) :
    k0_pay1 (F := Ideal) a x w b (ix2 p l) = k0_pay1 (F := Ideal) a' x w b (ix2 p l) := by
  rw [pay_apply, pay_apply]
  simp only [h]

end Cert.KernelIdeal.Payload

end
-- ==== Proof.KernelIdealRun.lean ====
/-
  The idealized kernel's run. The grid has 38 steps; step t stages rows 264·t … 264·t + 263 of the adjacency
  matrix (all 10000 columns), the whole feature matrix, the whole weight matrix and the bias row, and writes back
  rows 264·t … of the result. 38 · 264 = 10032 > 10000: the last slab overhangs the matrix by 32 rows, so its fetch
  fills only the first 232 rows of the staging buffer (the rest holds words nothing names) and its write-back
  writes only the first 232 rows of what the step stored. Because row p of the step's result reads the slab at
  row p only, the rows written back do not depend on those unnamed words: the proof data name, for each step, the
  slab filled out with zeros past the matrix's end and the step's payload of that.
-/
import proofs.«140104_g70205535420829_cont_sun_m_196_14_alg».proof.Proof.KernelIdealStep
import proofs.«140104_g70205535420829_cont_sun_m_196_14_alg».proof.Proof.KernelIdealPayload

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix2 eq_ix2)

local notation "𝕄" => MT nD τ sig Unit (Elt Ideal) ℕ (UR sig nD τ) ℕ

variable (m : (ℓ : Loc nD τ sig) → Buf (Elt Ideal) ℓ) (ρ : Dev nD → PrngReg)

/-! ## The slab and the result block cut alike -/

/-- On the row axis the adjacency slab and the result block are cut at the same row (both are 264-row blocks of
    10000-row arrays at the same block index); the slab is never cut on its column axis. -/
theorem xsize_facts : ∀ t : Fin cfg0.N, win0_4.xsize (grid0.coords t) 0 = win0_0.xsize (grid0.coords t) 0
    ∧ win0_0.xsize (grid0.coords t) 1 = 10000 :=
  (by decide +kernel : ∀ t : Fin grid0.N, _)

/-- A slab filled out in two ways past the matrix's end holds the same entries on every row the fetch fills. -/
theorem fill_rows (i : grid0.Coords) (hr : win0_4.xsize i 0 = win0_0.xsize i 0) (hc : win0_0.xsize i 1 = 10000)
    (d d' : S264x10000.Idx → Elt Ideal .f32) (g : (win0_0.xblock i).Idx → Elt Ideal .f32)
    (p : Fin 264) (hp : p.val < win0_4.xsize i 0) (col : Fin 10000) :
    win0_0.fill i d g (ix2 p col) = win0_0.fill i d' g (ix2 p col) := by
  have hm : win0_0.moved i (ix2 p col) = true := (win0_0.moved_iff i _).mpr fun a => by
    match a with
    | ⟨0, _⟩ => show p.val < win0_0.xsize i 0; rw [← hr]; exact hp
    | ⟨1, _⟩ => show col.val < win0_0.xsize i 1; rw [hc]; exact col.isLt
  unfold Window.fill
  rw [dif_pos hm, dif_pos hm]

/-- So the rows of the step's result that the write-back writes do not depend on how the slab is filled out. -/
theorem cut_pay (t : Fin cfg0.N) (d d' : S264x10000.Idx → Elt Ideal .f32)
    (g : (win0_0.xblock (grid0.coords t)).Idx → Elt Ideal .f32) (x : Vec Ideal S10000x128 .f32)
    (w : Vec Ideal S128x128 .f32) (b : Vec Ideal S1x128 .f32) :
    win0_4.cut (grid0.coords t) (k0_pay1 (F := Ideal) (win0_0.fill (grid0.coords t) d g) x w b)
      = win0_4.cut (grid0.coords t) (k0_pay1 (F := Ideal) (win0_0.fill (grid0.coords t) d' g) x w b) := by
  obtain ⟨hr, hc⟩ := xsize_facts t
  generalize grid0.coords t = i at *
  funext j
  have h0 : (j 0).val < 264 := Nat.lt_of_lt_of_le (j 0).isLt (win0_4.xsize_le i 0)
  have h1 : (j 1).val < 128 := Nat.lt_of_lt_of_le (j 1).isLt (win0_4.xsize_le i 1)
  have e : win0_4.xinj i j = ix2 (⟨(j 0).val, h0⟩ : Fin 264) (⟨(j 1).val, h1⟩ : Fin 128) := funext fun a => Fin.ext (by
    match a with
    | ⟨0, _⟩ => rfl
    | ⟨1, _⟩ => rfl)
  show k0_pay1 (F := Ideal) (win0_0.fill i d g) x w b (win0_4.xinj i j) = k0_pay1 (F := Ideal) (win0_0.fill i d' g) x w b (win0_4.xinj i j)
  rw [e]
  exact Payload.pay_rows _ _ x w b _ _ fun col => fill_rows i hr hc d d' g _ (j 0).isLt col

/-! ## The proof data -/

/-- Zeros, to fill a slab out past the matrix's end. -/
def zeros : S264x10000.Idx → Elt Ideal .f32 := fun _ => Scalar.ofBits (F := Ideal) .f32 0#32

/-- Step t's slab of the adjacency matrix: its rows inside the matrix, zeros past its end. -/
def slab (c : Dev nD) (t : Fin cfg0.N) : S264x10000.Idx → Elt Ideal .f32 :=
  win0_0.fill (grid0.coords t) zeros (iblk m c 0 t)

/-- After step t the slab's buffer holds the slab, the three resident buffers the features, the weights and the
    bias row, and the result's buffer the step's payload of them. -/
def dats (_ : Fin 1) (c : Dev nD) : Dat τ (Elt Ideal) Unit ℕ (UR sig nD τ) ℕ cfg0 c where
  A w := V m c (Pipeline.arrRef spec0 w)
  after w t := match w with
    | ⟨0, _⟩ => slab m c t
    | ⟨1, _⟩ => iblk m c 1 t
    | ⟨2, _⟩ => iblk m c 2 t
    | ⟨3, _⟩ => iblk m c 3 t
    | ⟨4, _⟩ => k0_pay1 (F := Ideal) (slab m c t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_adj (c : Dev nD) (t : Fin cfg0.N) : (dats m 0 c).after 0 t = slab m c t := by dsimp only [dats]
theorem after_node (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_bias (c : Dev nD) (t : Fin cfg0.N) : (dats m 0 c).after 3 t = iblk m c 3 t := by dsimp only [dats]
theorem after_out (c : Dev nD) (t : Fin cfg0.N) :
    (dats m 0 c).after 4 t = k0_pay1 (F := Ideal) (slab m c t) (iblk m c 1 t) (iblk m c 2 t) (iblk m c 3 t) := by dsimp only [dats]

/-- The slab is fetched at every step: its buffer holds the slab's rows inside the matrix, anything past them. -/
theorem before_adj (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq m c 0]
/-- The three resident buffers hold their arrays at every step. -/
theorem before_node (c : Dev nD) (t : Fin cfg0.N) (d) : (dats m 0 c).before 1 t d = iblk m c 1 t :=
  before0_1_of m (dats m 0 c) (A_eq m c 1) (after_node m c) t d
theorem before_w (c : Dev nD) (t : Fin cfg0.N) (d) : (dats m 0 c).before 2 t d = iblk m c 2 t :=
  before0_2_of m (dats m 0 c) (A_eq m c 2) (after_w m c) t d
theorem before_bias (c : Dev nD) (t : Fin cfg0.N) (d) : (dats m 0 c).before 3 t d = iblk m c 3 t :=
  before0_3_of m (dats m 0 c) (A_eq m c 3) (after_bias m c) t d

/-! ## The step's obligation -/

def stepPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def stepPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t)))))

/-- The step at any grid point: the slab's buffer holds the slab filled out with whatever the fetch left past the
    matrix's end, and the rows of the result the write-back writes are the named payload's rows. -/
theorem sound_body (c : Dev nD) (t : Fin cfg0.N) :
    stepPre m c t ⊢ wp frame (wpE (defs₀ (F := Ideal)) Variants.none c none) Set.univ (bodyAt0 t) (fun _ => stepPost m c t) := by
  unfold stepPre stepPost bodyAt0
  simp only [before_adj, before_node, before_w, before_bias]
  rw [show (dats m 0 c).Φ t.succ = (dats m 0 c).Φ t.castSucc from rfl,
    show (dats m 0 c).owesAt () t.succ = (dats m 0 c).owesAt () t.castSucc from rfl,
    after_adj, after_node, after_w, after_bias, after_out]
  unfold slab
  iintro ⟨HΦ, Ho, ⟨%d0, H0⟩, ⟨%d1, H1⟩, ⟨%d2, H2⟩, ⟨%d3, H3⟩, ⟨%d4, H4⟩⟩
  iapply (sound_step (F := Ideal) c Set.univ (grid0.coords t) _ _ _ _ _ _ _ _ _ _
    (win0_0.fill (grid0.coords t) d0 (iblk m c 0 t)) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    rw [win0_0.cut_fill]
    iexact H0
  isplitl [H1]; · iexact H1
  isplitl [H2]; · iexact H2
  isplitl [H3]; · iexact H3
  iexists k0_pay1 (F := Ideal) (win0_0.fill (grid0.coords t) d0 (iblk m c 0 t)) (iblk m c 1 t) (iblk m c 2 t) (iblk m c 3 t)
  rw [win0_4.fill_congr_cut (grid0.coords t) (cut_pay t d0 zeros (iblk m c 0 t) (iblk m c 1 t) (iblk m c 2 t) (iblk m c 3 t)), ← stored_eq]
  iexact H4

theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the idealized kernel terminates, nothing faulting, with every array of the
    pipeline at what the proof data compute and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the run read at the four argument arrays. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.GcnLayer.lean ====
/-
  The graph-convolution layer as one function of its four arrays, entry by entry, in the two groupings the two
  programs compute it in, and the law that joins them.

  For node features X (10000 × 128), adjacency A (10000 × 10000), weights W (128 × 128) and bias b (128):
    the reference computes  max(A · (X · W), 0) + b,      entry (r, l):  max(∑ⱼ A[r,j] · (∑ₖ X[j,k] · W[k,l]), 0) + b[l];
    the kernel computes     max((A · X) · W, 0) + b,      entry (r, l):  max(∑ₖ (∑ⱼ A[r,j] · X[j,k]) · W[k,l], 0) + b[l].
  The two agree when every entry of A, X and W is a real number (associativity of the matrix product, which on
  the extended reals needs the entries finite: distributivity fails at the infinities).
-/
import Idealize.ShloMosaic.Lib.ValueIdx
import Idealize.ShloMosaic.PureOps.Ideal
import proofs.«140104_g70205535420829_cont_sun_m_196_14_alg».proof.Proof.LibSumAssoc

noncomputable section

namespace GcnLayer

open Idealize.ShloMosaic Idealize.ShloMosaic.ValueIdx

abbrev SNode : Shape := ⟨2, ![10000, 128]⟩
abbrev SAdj : Shape := ⟨2, ![10000, 10000]⟩
abbrev SW : Shape := ⟨2, ![128, 128]⟩
abbrev SBias : Shape := ⟨1, ![128]⟩
abbrev SBiasRow : Shape := ⟨2, ![1, 128]⟩

/-- The reference's grouping: adjacency times (features times weights). -/
def refForm (node : SNode.Idx → EReal) (adj : SAdj.Idx → EReal) (w : SW.Idx → EReal) (bias : SBias.Idx → EReal) :
    SNode.Idx → EReal := fun i =>
  max (∑ j : Fin 10000, adj (ix2 (⟨(i 0).val, (i 0).isLt⟩ : Fin 10000) j)
      * ∑ k : Fin 128, node (ix2 j k) * w (ix2 k (⟨(i 1).val, (i 1).isLt⟩ : Fin 128))) 0
    + bias (ix1 (⟨(i 1).val, (i 1).isLt⟩ : Fin 128))

/-- The kernel's grouping: (adjacency times features) times weights, the bias a one-row matrix. -/
def kerForm (node : SNode.Idx → EReal) (adj : SAdj.Idx → EReal) (w : SW.Idx → EReal) (biasRow : SBiasRow.Idx → EReal) :
    SNode.Idx → EReal := fun i =>
  max (∑ k : Fin 128, (∑ j : Fin 10000, adj (ix2 (⟨(i 0).val, (i 0).isLt⟩ : Fin 10000) j) * node (ix2 j k))
      * w (ix2 k (⟨(i 1).val, (i 1).isLt⟩ : Fin 128))) 0
    + biasRow (ix2 (0 : Fin 1) (⟨(i 1).val, (i 1).isLt⟩ : Fin 128))

/-- THE LAW: for real entries the two groupings are one function. -/
theorem kerForm_eq_refForm (node : SNode.Idx → EReal) (adj : SAdj.Idx → EReal) (w : SW.Idx → EReal)
    (bias : SBias.Idx → EReal) (biasRow : SBiasRow.Idx → EReal)
    (hn : ∀ i, ∃ r : ℝ, node i = r) (ha : ∀ i, ∃ r : ℝ, adj i = r) (hw : ∀ i, ∃ r : ℝ, w i = r)
    (hb : ∀ l : Fin 128, biasRow (ix2 (0 : Fin 1) l) = bias (ix1 l)) :
    kerForm node adj w biasRow = refForm node adj w bias := by
  funext i
  unfold kerForm refForm
  rw [hb]
  exact congrArg (fun s => max s 0 + bias (ix1 (⟨(i 1).val, (i 1).isLt⟩ : Fin 128)))
    (ERealSums.sum_mul_sum_assoc (fun j : Fin 10000 => adj (ix2 (⟨(i 0).val, (i 0).isLt⟩ : Fin 10000) j))
      (fun (j : Fin 10000) (k : Fin 128) => node (ix2 j k)) (fun k : Fin 128 => w (ix2 k (⟨(i 1).val, (i 1).isLt⟩ : Fin 128)))
      (fun _ => ha _) (fun _ _ => hn _) (fun _ => hw _))

end GcnLayer

end
-- ==== Proof.KernelIdealValue.lean ====
/-
  What the idealized kernel leaves in the result array. Step t writes back the rows of its payload that lie inside
  the array — rows 264·t … of the result — and row p of that payload is the layer's row 264·t + p in the kernel's
  grouping, max((A · X) · W, 0) + b, computed from row 264·t + p of the adjacency matrix, the whole feature and
  weight matrices and the bias row. The 38 row blocks (37 of 264 rows and one of 232) cover the 10000 rows, so the
  array ends holding the layer, entry by entry.
-/
import proofs.«140104_g70205535420829_cont_sun_m_196_14_alg».proof.Proof.KernelIdealRun
import proofs.«140104_g70205535420829_cont_sun_m_196_14_alg».proof.Proof.GcnLayer
import Idealize.ShloMosaic.Lib.StableHlo.Run
import Idealize.ShloMosaic.Lib.ValueLayout

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx (ix1 ix2 eq_ix2)

variable (m : (ℓ : Loc nD τ sig) → Buf (Elt Ideal) ℓ) (ρ : Dev nD → PrngReg)

/-! ## The block indices, decided over the grid -/

/-- The slab and the result block sit at row block t; the three resident windows at block 0; the result block is
    never cut on its column axis, and on its row axis only at the last step, to 232 rows. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_4.xsize (grid0.coords t) (1 : Fin 2) = 128
    ∧ (t.val < 37 → win0_4.xsize (grid0.coords t) (0 : Fin 2) = 264)
    ∧ (t.val = 37 → win0_4.xsize (grid0.coords t) (0 : Fin 2) = 232) :=
  (by decide +kernel : ∀ t : Fin grid0.N, _)

/-! ## The staged blocks as entries of the arrays -/

theorem iblk_node_apply (c : Dev nD) (t : Fin cfg0.N) (j : Fin 10000) (k : Fin 128) :
    iblk m c 1 t (ix2 j k) = V m c main_arg0 (ix2 j k) := by
  obtain ⟨-, -, e0, e1, -⟩ := idx_facts t
  show V m c main_arg0 (((cfg0.win 1).blk t).view.emb (ix2 j k)) = V m c main_arg0 (ix2 j k)
  refine congrArg _ (funext fun a => Fin.ext ?_)
  match a with
  | ⟨0, _⟩ => show win0_1.index t (0 : Fin 2) * 10000 + 1 * j.val = j.val; rw [e0]; omega
  | ⟨1, _⟩ => show win0_1.index t (1 : Fin 2) * 128 + 1 * k.val = k.val; rw [e1]; omega

theorem iblk_w_apply (c : Dev nD) (t : Fin cfg0.N) (k : Fin 128) (l : Fin 128) :
    iblk m c 2 t (ix2 k l) = V m c main_arg2 (ix2 k l) := by
  obtain ⟨-, -, -, -, e0, e1, -⟩ := idx_facts t
  show V m c main_arg2 (((cfg0.win 2).blk t).view.emb (ix2 k l)) = V m c main_arg2 (ix2 k l)
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * l.val = l.val; rw [e1]; omega

theorem iblk_bias_apply (c : Dev nD) (t : Fin cfg0.N) (u : Fin 1) (l : Fin 128) :
    iblk m c 3 t (ix2 u l) = V m c main_call0_v0 (ix2 u l) := by
  obtain ⟨-, -, -, -, -, -, e0, e1, -⟩ := idx_facts t
  show V m c main_call0_v0 (((cfg0.win 3).blk t).view.emb (ix2 u l)) = V m c main_call0_v0 (ix2 u l)
  refine congrArg _ (funext fun a => Fin.ext ?_)
  match a with
  | ⟨0, _⟩ => show win0_3.index t (0 : Fin 2) * 1 + 1 * u.val = u.val; rw [e0]; omega
  | ⟨1, _⟩ => show win0_3.index t (1 : Fin 2) * 128 + 1 * l.val = l.val; rw [e1]; omega

/-- Row p of step t's slab, inside the matrix, is row 264·t + p of the adjacency matrix. -/
theorem slab_apply (c : Dev nD) (t : Fin cfg0.N) (p : Fin 264) (hp : p.val < win0_4.xsize (grid0.coords t) 0)
    (r : Fin 10000) (hr : r.val = t.val * 264 + p.val) (j : Fin 10000) :
    slab m c t (ix2 p j) = V m c main_arg1 (ix2 r j) := by
  obtain ⟨hr4, hc0⟩ := xsize_facts t
  obtain ⟨e0, e1, -⟩ := idx_facts t
  have hm : win0_0.moved (grid0.coords t) (ix2 p j) = true := (win0_0.moved_iff _ _).mpr fun a => by
    match a with
    | ⟨0, _⟩ => show p.val < win0_0.xsize (grid0.coords t) 0; rw [← hr4]; exact hp
    | ⟨1, _⟩ => show j.val < win0_0.xsize (grid0.coords t) 1; rw [hc0]; exact j.isLt
  unfold slab Window.fill
  rw [dif_pos hm]
  show V m c main_arg1 (((cfg0.win 0).blk t).view.emb _) = V m c main_arg1 (ix2 r j)
  refine congrArg _ (funext fun a => Fin.ext ?_)
  match a with
  | ⟨0, _⟩ => show win0_0.index t (0 : Fin 2) * 264 + 1 * p.val = r.val; rw [e0, hr]; omega
  | ⟨1, _⟩ => show win0_0.index t (1 : Fin 2) * 10000 + 1 * j.val = j.val; rw [e1]; omega

/-! ## What a step writes back -/

/-- WHAT STEP t WRITES BACK is its row block of the layer in the kernel's grouping. -/
theorem flushed_eq (c : Dev nD) (t : Fin cfg0.N) :
    (dats m 0 c).flushed 4 t = ((cfg0.win 4).blk t).view.read (Elt Ideal)
      (GcnLayer.kerForm (V m c main_arg0) (V m c main_arg1) (V m c main_arg2) (V m c main_call0_v0)) := by
  show (cfg0.win 4).cut (grid0.coords t) ((dats m 0 c).after 4 t) = _
  rw [after_out]
  obtain ⟨-, -, -, -, -, -, -, -, e40, e41, x1, x264, x232⟩ := idx_facts t
  have hN : t.val < 38 := t.isLt.trans_eq N_0
  funext j
  have h0 : (j 0).val < 264 := Nat.lt_of_lt_of_le (j 0).isLt (win0_4.xsize_le (grid0.coords t) 0)
  have h1 : (j 1).val < 128 := Nat.lt_of_lt_of_le (j 1).isLt (win0_4.xsize_le (grid0.coords t) 1)
  have e : win0_4.xinj (grid0.coords t) j = ix2 (⟨(j 0).val, h0⟩ : Fin 264) (⟨(j 1).val, h1⟩ : Fin 128) := funext fun a => Fin.ext (by
    match a with
    | ⟨0, _⟩ => rfl
    | ⟨1, _⟩ => rfl)
  have hj0 : (j 0).val < win0_4.xsize (grid0.coords t) 0 := (j 0).isLt
  have hrow : t.val * 264 + (j 0).val < 10000 := by
    by_cases h37 : t.val = 37
    · rw [x232 h37] at hj0; omega
    · omega
  show k0_pay1 (F := Ideal) (slab m c t) (iblk m c 1 t) (iblk m c 2 t) (iblk m c 3 t) (win0_4.xinj (grid0.coords t) j)
    = GcnLayer.kerForm (V m c main_arg0) (V m c main_arg1) (V m c main_arg2) (V m c main_call0_v0) (((cfg0.win 4).blk t).view.emb j)
  rw [e, Payload.pay_apply]
  have hs : ∀ jj : Fin 10000, slab m c t (ix2 (⟨(j 0).val, h0⟩ : Fin 264) jj) = V m c main_arg1 (ix2 (⟨t.val * 264 + (j 0).val, hrow⟩ : Fin 10000) jj) :=
    fun jj => slab_apply m c t _ hj0 _ rfl jj
  simp only [hs, iblk_node_apply, iblk_w_apply, iblk_bias_apply]
  unfold GcnLayer.kerForm
  have hE0 : (⟨((((cfg0.win 4).blk t).view.emb j) 0).val, ((((cfg0.win 4).blk t).view.emb j) 0).isLt⟩ : Fin 10000) = ⟨t.val * 264 + (j 0).val, hrow⟩ :=
    Fin.ext (by show win0_4.index t (0 : Fin 2) * 264 + 1 * (j 0).val = t.val * 264 + (j 0).val; rw [e40]; omega)
  have hE1 : (⟨((((cfg0.win 4).blk t).view.emb j) 1).val, ((((cfg0.win 4).blk t).view.emb j) 1).isLt⟩ : Fin 128) = ⟨(j 1).val, h1⟩ :=
    Fin.ext (by show win0_4.index t (1 : Fin 2) * 128 + 1 * (j 1).val = (j 1).val; rw [e41]; omega)
  rw [hE0, hE1]

/-! ## The row blocks cover the array -/

theorem mem_blk (t : Fin cfg0.N) (i : S10000x128.Idx) :
    i ∈ ((cfg0.win 4).blk t).view.set ↔ ∀ a : Fin 2, win0_4.index t a * S264x128.size a ≤ (i a).val
      ∧ (i a).val < win0_4.index t a * S264x128.size a + win0_4.xsize (grid0.coords t) a := by
  show i ∈ ((View.whole main_v0).slice (win0_4.rect t)).set ↔ _
  rw [View.set_slice_whole, Rect.mem_set_unit]
  exact Iff.rfl

/-- Row r lies in the block of step r / 264. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hlt : (i 0).val / 264 < cfg0.N := (show (i 0).val / 264 < 38 by omega).trans_eq N_0.symm
  obtain ⟨-, -, -, -, -, -, -, -, e40, e41, x1, x264, x232⟩ := idx_facts ⟨(i 0).val / 264, hlt⟩
  refine ⟨⟨(i 0).val / 264, hlt⟩, flush0_4 _, (mem_blk _ i).mpr fun a => ?_⟩
  match a with
  | ⟨0, _⟩ =>
    show win0_4.index ⟨(i 0).val / 264, hlt⟩ (0 : Fin 2) * 264 ≤ (i 0).val
      ∧ (i 0).val < win0_4.index ⟨(i 0).val / 264, hlt⟩ (0 : Fin 2) * 264 + win0_4.xsize (grid0.coords ⟨(i 0).val / 264, hlt⟩) (0 : Fin 2)
    rw [e40]
    by_cases h37 : (i 0).val / 264 = 37
    · rw [x232 h37]; show (i 0).val / 264 * 264 ≤ (i 0).val ∧ (i 0).val < (i 0).val / 264 * 264 + 232; omega
    · rw [x264 (show (i 0).val / 264 < 37 by omega)]; show (i 0).val / 264 * 264 ≤ (i 0).val ∧ (i 0).val < (i 0).val / 264 * 264 + 264; omega
  | ⟨1, _⟩ =>
    show win0_4.index ⟨(i 0).val / 264, hlt⟩ (1 : Fin 2) * 128 ≤ (i 1).val
      ∧ (i 1).val < win0_4.index ⟨(i 0).val / 264, hlt⟩ (1 : Fin 2) * 128 + win0_4.xsize (grid0.coords ⟨(i 0).val / 264, hlt⟩) (1 : Fin 2)
    rw [e41, x1]; omega

/-! ## The array after the run -/

/-- The bias row the kernel stages is the bias vector as a one-row matrix. -/
theorem biasRow_apply (c : Dev nD) (l : Fin 128) :
    V m c main_call0_v0 (ix2 (0 : Fin 1) l) = m ((c : Thread nD τ).loc main_arg3) (ix1 l) := by
  have e : (V m c main_call0_v0 : S1x128.Idx → Elt Ideal .f32)
      = shapeCast S1x128 (m ((c : Thread nD τ).loc main_arg3)) shapeCasts_S128_S1x128 := by
    dsimp only [V, hostOps0]; after_results; rfl
  rw [e]
  exact ValueIdx.shapeCast_a_1a_apply _ _ _ _

/-- THE RESULT ARRAY after the run: the layer in the kernel's grouping, of the arrays as launched. -/
theorem final (c : Dev nD) : (dats m 0 c).arrAt 4 cfg0.N
    = GcnLayer.kerForm (V m c main_arg0) (V m c main_arg1) (V m c main_arg2) (V m c main_call0_v0) :=
  (dats m 0 c).arrAt_eq_of_cover 4 _ (fun t _ => flushed_eq m c t) cover

/-- The run re-posted: the result array at the layer, the arguments unchanged. -/
theorem run : θ_run defs (onTc (τ := τ) (main (F := Ideal))) ⟨m, fun _ => 0, ρ⟩ fun r => ∀ c : Dev nD,
      r.2.mem ((c.tc : Thread nD τ).loc main_v0)
        = GcnLayer.kerForm (V m c main_arg0) (V m c main_arg1) (V m c main_arg2) (V m c main_call0_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.Gen

end
-- ==== Proof.ReferenceIsLayer.lean ====
/-
  The reference program computes the layer in its own grouping: its result, read one operation at a time, is
  max(A · (X · W), 0) + b entry by entry.
-/
import proofs.«140104_g70205535420829_cont_sun_m_196_14_alg».proof.Proof.Gen.ReferenceIdeal.Read
import proofs.«140104_g70205535420829_cont_sun_m_196_14_alg».proof.Proof.GcnLayer

noncomputable section

namespace Cert.ReferenceIdeal.RefLayer

open Cert.ReferenceIdeal Cert.ReferenceIdeal.Gen Idealize.ShloMosaic Idealize.ShloMosaic.ValueIdx

/-- The reference's result term is the layer in the reference's grouping. -/
theorem ref_is_layer (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    Read.val_main_v5 (F := Ideal) x0 x1 x2 x3 = GcnLayer.refForm x0 x1 x2 x3 := by
  funext i
  have eA : ∀ j : Fin 10000, Read.lidx_main_v1 i j = ix2 (⟨(i 0).val, (i 0).isLt⟩ : Fin 10000) j := fun j =>
    funext fun a => Fin.ext (by match a with | ⟨0, _⟩ => rfl | ⟨1, _⟩ => rfl)
  have eX : ∀ (j : Fin 10000) (k : Fin 128), Read.lidx_main_v0 (Read.ridx_main_v1 i j) k = ix2 j k := fun j k =>
    funext fun a => Fin.ext (by match a with | ⟨0, _⟩ => rfl | ⟨1, _⟩ => rfl)
  have eW : ∀ (j : Fin 10000) (k : Fin 128), Read.ridx_main_v0 (Read.ridx_main_v1 i j) k = ix2 k (⟨(i 1).val, (i 1).isLt⟩ : Fin 128) := fun j k =>
    funext fun a => Fin.ext (by match a with | ⟨0, _⟩ => rfl | ⟨1, _⟩ => rfl)
  have eB : Read.idx_main_v3 (Read.idx_main_v4 i) = ix1 (⟨(i 1).val, (i 1).isLt⟩ : Fin 128) :=
    funext fun a => Fin.ext (by match a with | ⟨0, _⟩ => rfl)
  rw [Read.val_main_v5_apply, Read.val_main_v2_apply, Read.val_main_v1_apply, Read.val_main_v4_apply, Read.val_main_v3_apply,
    Read.val_main_call0_v0_apply, Read.val_main_call0_cst_apply]
  simp only [Read.val_main_v0_apply, eA, eX, eW, eB]
  show max _ (Ideal.ofBits .f32 0x00000000#32) + _ = _
  rw [Ideal.ofBits_zero_f32]
  rfl

end Cert.ReferenceIdeal.RefLayer

end
-- ==== Proof.FiniteInputs.lean ====
/-
  What the precondition says: every entry of every float input compares below +∞ in absolute value, so it is a
  real number (an extended real whose absolute value is below +∞ is neither infinity).
-/
import proofs.«140104_g70205535420829_cont_sun_m_196_14_alg».proof.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- An extended real whose absolute value compares below the float +∞ is a real number. -/
theorem real_of_abs_lt_inf (x : EReal)
    (h : Ideal.cmp .olt (max x (-x)) (Ideal.ofBits .f32 0x7F800000#32) = 1#1) : ∃ r : ℝ, x = r := by
  have htop : Ideal.ofBits .f32 0x7F800000#32 = (⊤ : EReal) := by simp [Ideal.ofBits, Ideal.ieee]
  rw [htop] at h
  induction x using EReal.rec with
  | bot => exfalso; simp [Ideal.cmp] at h
  | coe r => exact ⟨r, rfl⟩
  | top => exfalso; simp [Ideal.cmp] at h

/-- The precondition all ones: the features, the adjacency matrix and the weights have real entries. -/
theorem entries_real [Facts] (a0 : FVec Ideal S10000x128 .f32) (a1 : FVec Ideal S10000x10000 .f32)
    (a2 : FVec Ideal S128x128 .f32) (a3 : FVec Ideal S128 .f32)
    (h : fn (F := Ideal) a0 a1 a2 a3 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn, fn_part1] at h0
  obtain ⟨h012, -⟩ := IntOp.andi_eq_one.1 h0
  obtain ⟨h01, h2⟩ := IntOp.andi_eq_one.1 h012
  obtain ⟨hA0, hA1⟩ := IntOp.andi_eq_one.1 h01
  exact ⟨fun i => real_of_abs_lt_inf _ (Host.reduce_andi_all _ _ _ _ _ hA0 i),
    fun i => real_of_abs_lt_inf _ (Host.reduce_andi_all _ _ _ _ _ hA1 i),
    fun i => real_of_abs_lt_inf _ (Host.reduce_andi_all _ _ _ _ _ h2 i)⟩

end Cert.Pre_finite_inputs.Finite

end
-- ==== Proof.lean ====
/-
  The certificate of the graph-convolution kernel against its reference.

  The kernel computes  max((A · X) · W, 0) + b  in 38 grid steps of 264 rows of the adjacency matrix A (the last
  step's rows past the matrix's end are cut from its transfers), the reference  max(A · (X · W), 0) + b  on the
  host. At the extended reals each program's result is a plain finite sum per entry, and the two groupings agree
  because the matrix product is associative for real entries — which the precondition (every input finite)
  provides; on the extended reals themselves distributivity fails at the infinities.

  The three frames: each program runs to the end, nothing faulting, its arguments unchanged. The idealization
  rewrote nothing, so its soundness conjunct is trivial.
-/
import proofs.«140104_g70205535420829_cont_sun_m_196_14_alg».proof.Defs
import proofs.«140104_g70205535420829_cont_sun_m_196_14_alg».proof.Proof.Gen.Kernel
import proofs.«140104_g70205535420829_cont_sun_m_196_14_alg».proof.Proof.Gen.KernelIdeal
import proofs.«140104_g70205535420829_cont_sun_m_196_14_alg».proof.Proof.Gen.ReferenceIdeal
import proofs.«140104_g70205535420829_cont_sun_m_196_14_alg».proof.Proof.Gen.ReferenceIdeal.Run
import proofs.«140104_g70205535420829_cont_sun_m_196_14_alg».proof.Proof.Gen.ReferenceIdeal.Read
import proofs.«140104_g70205535420829_cont_sun_m_196_14_alg».proof.Proof.Gen.Pre_finite_inputs
import proofs.«140104_g70205535420829_cont_sun_m_196_14_alg».proof.Proof.KernelRun
import proofs.«140104_g70205535420829_cont_sun_m_196_14_alg».proof.Proof.KernelIdealValue
import proofs.«140104_g70205535420829_cont_sun_m_196_14_alg».proof.Proof.ReferenceIsLayer
import proofs.«140104_g70205535420829_cont_sun_m_196_14_alg».proof.Proof.FiniteInputs
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame (F := Bits) m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer max(A · (X · W), 0) + b of the arguments in the result array: the kernel's
    grouping (A · X) · W is the reference's A · (X · W) because the inputs are finite. -/
theorem algebraic : Cert.algebraic_KernelIdeal_ReferenceIdeal := by
  intro m ρ m' ρ' hpre hagree
  refine ⟨fun c => GcnLayer.refForm (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Gen.run m ρ)
    obtain ⟨hn, ha, hw⟩ := Cert.Pre_finite_inputs.Finite.entries_real _ _ _ _ (hpre c)
    rw [Cert.KernelIdeal.Gen.V_main_arg0, Cert.KernelIdeal.Gen.V_main_arg1, Cert.KernelIdeal.Gen.V_main_arg2]
    exact GcnLayer.kerForm_eq_refForm _ _ _ _ _ hn ha hw (fun l => Cert.KernelIdeal.Gen.biasRow_apply m c l)
  · refine (θ_run Cert.ReferenceIdeal.defs _ _).mono (fun _ h c => ⟨?_, (h c).2⟩) (Cert.ReferenceIdeal.Value.run (F := Ideal) m' ρ')
    rw [(h c).1, Cert.ReferenceIdeal.Read.val_main_v5_eq, Cert.ReferenceIdeal.RefLayer.ref_is_layer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
